-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S1x1x1024x64 : Shape := ⟨4, ![1, 1, 1024, 64]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩
abbrev S8x1024x16x64 : Shape := ⟨4, ![8, 1024, 16, 64]⟩
abbrev S8x1024x1024 : Shape := ⟨3, ![8, 1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x64, .f32⟩
  | .hbm, ⟨4, _⟩ => ⟨S8x1024x16x64, .f32⟩
  | .hbm, ⟨5, _⟩ => ⟨S8x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  broadcasts_S1024x1_S1024x1024 : S1024x1.Broadcasts S1024x1024
  shapeCasts_S1024x64_S1x1x1024x64 : S1024x64.ShapeCasts S1x1x1024x64
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S8x16x1024x64.size a
  hwx0_3 : ∀ i : grid0.Coords, EltTy.bits .f32 = 32 ∨ (Rect.block (s := S8x16x1024x64) S1x1x1024x64.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S_ : Shape := ⟨0, ![]⟩
abbrev S8x16x1024 : Shape := ⟨3, ![8, 16, 1024]⟩
abbrev S8x16x1024x1 : Shape := ⟨4, ![8, 16, 1024, 1]⟩
abbrev S8x16x1024x1024 : Shape := ⟨4, ![8, 16, 1024, 1024]⟩
abbrev S8x1024x16x64 : Shape := ⟨4, ![8, 1024, 16, 64]⟩
abbrev S8x1024x1024 : Shape := ⟨3, ![8, 1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x64, .f32⟩
  | .hbm, ⟨4, _⟩ => ⟨S_, .f32⟩
  | .hbm, ⟨5, _⟩ => ⟨S8x16x1024, .f32⟩
  | .hbm, ⟨6, _⟩ => ⟨S8x16x1024x1, .f32⟩
  | .hbm, ⟨7, _⟩ => ⟨S8x16x1024x1, .f32⟩
  | .hbm, ⟨8, _⟩ => ⟨S_, .f32⟩
  | .hbm, ⟨9, _⟩ => ⟨S8x16x1024x1, .f32⟩
  | .hbm, ⟨10, _⟩ => ⟨S8x16x1024x1, .f32⟩
  | .hbm, ⟨11, _⟩ => ⟨S8x16x1024x64, .f32⟩
  | .hbm, ⟨12, _⟩ => ⟨S8x16x1024x64, .f32⟩
  | .hbm, ⟨13, _⟩ => ⟨S8x16x1024x64, .f32⟩
  | .hbm, ⟨14, _⟩ => ⟨S_, .f32⟩
  | .hbm, ⟨15, _⟩ => ⟨S8x16x1024, .f32⟩
  | .hbm, ⟨16, _⟩ => ⟨S8x16x1024x1, .f32⟩
  | .hbm, ⟨17, _⟩ => ⟨S8x16x1024x1, .f32⟩
  | .hbm, ⟨18, _⟩ => ⟨S_, .f32⟩
  | .hbm, ⟨19, _⟩ => ⟨S8x16x1024x1, .f32⟩
  | .hbm, ⟨20, _⟩ => ⟨S8x16x1024x1, .f32⟩
  | .hbm, ⟨21, _⟩ => ⟨S8x16x1024x64, .f32⟩
  | .hbm, ⟨22, _⟩ => ⟨S8x16x1024x64, .f32⟩
  | .hbm, ⟨23, _⟩ => ⟨S8x16x1024x1024, .f32⟩
  | .hbm, ⟨24, _⟩ => ⟨S_, .f32⟩
  | .hbm, ⟨25, _⟩ => ⟨S8x16x1024, .f32⟩
  | .hbm, ⟨26, _⟩ => ⟨S_, .f32⟩
  | .hbm, ⟨27, _⟩ => ⟨S8x16x1024, .f32⟩
  | .hbm, ⟨28, _⟩ => ⟨S8x16x1024, .f32⟩
  | .hbm, ⟨29, _⟩ => ⟨S8x16x1024x1, .f32⟩
  | .hbm, ⟨30, _⟩ => ⟨S8x16x1024x1024, .f32⟩
  | .hbm, ⟨31, _⟩ => ⟨S8x16x1024x1024, .f32⟩
  | .hbm, ⟨32, _⟩ => ⟨S8x16x1024x1024, .f32⟩
  | .hbm, ⟨33, _⟩ => ⟨S_, .f32⟩
  | .hbm, ⟨34, _⟩ => ⟨S8x16x1024, .f32⟩
  | .hbm, ⟨35, _⟩ => ⟨S8x16x1024x1, .f32⟩
  | .hbm, ⟨36, _⟩ => ⟨S8x16x1024x1024, .f32⟩
  | .hbm, ⟨37, _⟩ => ⟨S8x16x1024x1024, .f32⟩
  | .hbm, ⟨38, _⟩ => ⟨S8x16x1024x64, .f32⟩
  | .hbm, ⟨39, _⟩ => ⟨S8x1024x16x64, .f32⟩
  | .hbm, ⟨40, _⟩ => ⟨S8x1024x1024, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S8x16x1024x64_S8x16x1024_d3 : S8x16x1024x64.ReducesTo [3] S8x16x1024
  h_S_ : 0 < S_.numel
  bcast_S8x16x1024_S8x16x1024x1_0_1_2 : S8x16x1024.BroadcastsInDim S8x16x1024x1 (![0, 1, 2] : Fin 3 → Fin S8x16x1024x1.rank)
  bcast_S_S8x16x1024x1 : S_.BroadcastsInDim S8x16x1024x1 (![] : Fin 0 → Fin S8x16x1024x1.rank)
  bcast_S8x16x1024x1_S8x16x1024x64_0_1_2_3 : S8x16x1024x1.BroadcastsInDim S8x16x1024x64 (![0, 1, 2, 3] : Fin 4 → Fin S8x16x1024x64.rank)
  reducesTo_S8x16x1024x1024_S8x16x1024_d3 : S8x16x1024x1024.ReducesTo [3] S8x16x1024
  bcast_S_S8x16x1024 : S_.BroadcastsInDim S8x16x1024 (![] : Fin 0 → Fin S8x16x1024.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRowSoftmax.lean ====
/-
  Row-wise pieces of a dense network on the extended reals, entry by entry, generic in the sizes: a bias
  row added to every row of a matrix, that sum rectified, and the logarithm of the row-wise softmax —
  every entry minus its row's largest entry, minus the logarithm of the sum over the row of the
  exponentials of those differences.

  Each reads entry (p, q) of its result from row p of its matrix operand only, so computed on a block
  of rows it gives the rows of what it gives on the whole array (the block-of-rows laws). The vector
  unit's spelling (identity casts, a one-row broadcast, lane reductions from minus infinity and from zero
  kept as columns and broadcast back) and the host's spelling (two-step bias broadcasts, a maximum with a
  broadcast zero, reductions with a maximum and an add body, the row maximum taken once more against
  minus infinity) of each piece are that one function.
-/
import proofs.«158570_j59373627899918_1_alg».proof.Proof.LibDense
import proofs.«158570_j59373627899918_1_alg».proof.Proof.LibColumn

noncomputable section

open scoped BigOperators

namespace Cert.Gcn

open Cert.Dense Idealize.ShloMosaic Idealize.ShloMosaic.ValueIdx

variable {M M' N : ℕ}

/-- A one-row matrix added to every row of a matrix. -/
def addRow (A : Mat M N) (b : Mat 1 N) : Mat M N := fun i => A i + b (ix2 (0 : Fin 1) (i 1))

/-- A bias row added to every row, then the rectifier. -/
def biasRelu (A : Mat M N) (b : Mat 1 N) : Mat M N := relu (addRow A b)

/-- The word of single-precision minus infinity, read on the extended reals. -/
def negInf : EReal := Ideal.ofBits .f32 0xFF800000#32

/-- The largest entry of row p, folded from minus infinity. -/
def rowMax (Y : Mat M N) (p : Fin M) : EReal :=
  (Finset.univ : Finset (Fin N)).fold max negInf (fun k => Y (ix2 p k))

/-- The logarithm of the row-wise softmax: (y − m) − log Σ exp (y − m), m the row's largest entry. -/
def logSoftmax (Y : Mat M N) : Mat M N := fun i =>
  (Y i - rowMax Y (i 0)) - Ideal.log (∑ k : Fin N, Ideal.exp (Y (ix2 (i 0) k) - rowMax Y (i 0)))

/-- A bias row added to every row, then the logarithm of the row-wise softmax. -/
def biasLogSoftmax (A : Mat M N) (b : Mat 1 N) : Mat M N := logSoftmax (addRow A b)

/-- A vector laid out as the one row of a one-row matrix. -/
def rowOf (b : Row N) : Mat 1 N := fun i => b (ix1 (i 1))

theorem logSoftmax_apply (Y : Mat M N) (p : Fin M) (q : Fin N) :
    logSoftmax Y (ix2 p q)
      = (Y (ix2 p q) - rowMax Y p) - Ideal.log (∑ k : Fin N, Ideal.exp (Y (ix2 p k) - rowMax Y p)) := rfl

/-! ## On a block of rows -/

theorem addRow_rows (A : Mat M' N) (blk : Mat M N) (b : Mat 1 N) (ρ : Fin M → Fin M')
    (h : ∀ p k, blk (ix2 p k) = A (ix2 (ρ p) k)) (p : Fin M) (q : Fin N) :
    addRow blk b (ix2 p q) = addRow A b (ix2 (ρ p) q) := by
  show blk (ix2 p q) + b (ix2 (0 : Fin 1) q) = A (ix2 (ρ p) q) + b (ix2 (0 : Fin 1) q)
  rw [h p q]

theorem biasRelu_rows (A : Mat M' N) (blk : Mat M N) (b : Mat 1 N) (ρ : Fin M → Fin M')
    (h : ∀ p k, blk (ix2 p k) = A (ix2 (ρ p) k)) (p : Fin M) (q : Fin N) :
    biasRelu blk b (ix2 p q) = biasRelu A b (ix2 (ρ p) q) := by
  show max (addRow blk b (ix2 p q)) 0 = max (addRow A b (ix2 (ρ p) q)) 0
  rw [addRow_rows A blk b ρ h p q]

theorem rowMax_rows (Y : Mat M' N) (blk : Mat M N) (ρ : Fin M → Fin M')
    (h : ∀ p k, blk (ix2 p k) = Y (ix2 (ρ p) k)) (p : Fin M) : rowMax blk p = rowMax Y (ρ p) := by
  unfold rowMax
  exact congrArg (fun f => Finset.fold max negInf f (Finset.univ : Finset (Fin N))) (funext fun k => h p k)

theorem logSoftmax_rows (Y : Mat M' N) (blk : Mat M N) (ρ : Fin M → Fin M')
    (h : ∀ p k, blk (ix2 p k) = Y (ix2 (ρ p) k)) (p : Fin M) (q : Fin N) :
    logSoftmax blk (ix2 p q) = logSoftmax Y (ix2 (ρ p) q) := by
  rw [logSoftmax_apply, logSoftmax_apply, rowMax_rows Y blk ρ h p, h p q]
  exact congrArg (fun s => (Y (ix2 (ρ p) q) - rowMax Y (ρ p)) - Ideal.log s)
    (Finset.sum_congr rfl fun k _ => by rw [h p k])

theorem biasLogSoftmax_rows (A : Mat M' N) (blk : Mat M N) (b : Mat 1 N) (ρ : Fin M → Fin M')
    (h : ∀ p k, blk (ix2 p k) = A (ix2 (ρ p) k)) (p : Fin M) (q : Fin N) :
    biasLogSoftmax blk b (ix2 p q) = biasLogSoftmax A b (ix2 (ρ p) q) :=
  logSoftmax_rows (addRow A b) (addRow blk b) ρ (fun p k => addRow_rows A blk b ρ h p k) p q

/-! ## As the vector unit spells them -/

/-- The block plus the bias row broadcast over its rows (the casts to the same shape are the identity). -/
theorem addf_cast_broadcastTo (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  rw [shapeCast_self, shapeCast_self]
  funext i
  obtain ⟨p, q, rfl⟩ : ∃ (p : Fin M) (q : Fin N), i = ix2 p q := ⟨i 0, i 1, eq_ix2 i⟩
  show x0 (ix2 p q) + broadcastTo ⟨2, ![M, N]⟩ x1 hb (ix2 p q) = x0 (ix2 p q) + x1 (ix2 (0 : Fin 1) q)
  rw [broadcastTo_1b_ab_apply]

/-- Bias, then the maximum with a splat of the zero word. -/
theorem kernel_biasRelu (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ x0 h0) (broadcastTo ⟨2, ![M, N]⟩ (shapeCast ⟨2, ![1, N]⟩ x1 h1) hb))
        (broadcast ⟨2, ![M, N]⟩ (Scalar.ofBits (F := Ideal) .f32 0x00000000#32))
      = biasRelu x0 x1 := by
  rw [addf_cast_broadcastTo]
  exact maximumf_splat_zero _

/-- The reduced index p with column k put back is (p, k). -/
theorem lift_axis1 (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A lane maximum from minus infinity, kept as a vector over the rows, is the row's largest entry. -/
theorem reduce_max_row (Y : FVec Ideal ⟨2, ![M, N]⟩ .f32) (hr : (⟨2, ![M, N]⟩ : Shape).Reduces [1] (⟨1, ![M]⟩ : Shape))
    (hφ : FKind.Formats .f32) (hacc : (0xFF800000#32 : BitVec 32) = FKind.maximumf.neutral .f32 hφ) (p : Fin M) :
    multiReduction .maximumf [1] ⟨1, ![M]⟩ Y 0xFF800000#32 hr hφ hacc (ix1 p) = rowMax Y p := by
  refine (Ideal.multiReduction_maximumf_single Y 0xFF800000#32 hr hφ hacc (ix1 p)).trans ?_
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- A lane sum from zero, kept as a vector over the rows, is the sum over the row. -/
theorem reduce_add_row (Z : FVec Ideal ⟨2, ![M, N]⟩ .f32) (hr : (⟨2, ![M, N]⟩ : Shape).Reduces [1] (⟨1, ![M]⟩ : Shape))
    (hφ : FKind.Formats .f32) (hacc : (0x00000000#32 : BitVec 32) = FKind.add.neutral .f32 hφ) (p : Fin M) :
    multiReduction .add [1] ⟨1, ![M]⟩ Z 0x00000000#32 hr hφ hacc (ix1 p) = ∑ k : Fin N, Z (ix2 p k) := by
  refine (Ideal.multiReduction_add_single Z 0x00000000#32 hr hφ hacc (ix1 p)).trans ?_
  show ∑ k : Fin N, Z (hr.lift (ix1 p) k) = _
  exact Finset.sum_congr rfl fun k _ => congrArg Z (lift_axis1 hr p k)

/-- A column broadcast along the rows' second axis, read at (p, q): the column's entry p. -/
theorem broadcastTo_a1_ab_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The vector unit's logarithm of the row-wise softmax: the row maxima and the row sums are lane reductions kept as
    columns and broadcast back over the row. -/
theorem kernel_logSoftmax (Y : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Y (broadcastTo ⟨2, ![M, N]⟩ (shapeCast ⟨2, ![M, 1]⟩ (multiReduction .maximumf [1] ⟨1, ![M]⟩ Y 0xFF800000#32 hr hφ hmax) hc) hb))
      (broadcastTo ⟨2, ![M, N]⟩ (log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc)) hb)
      = logSoftmax Y := by
  have hm : ∀ (p : Fin M) (q : Fin N),
      broadcastTo ⟨2, ![M, N]⟩ (shapeCast ⟨2, ![M, 1]⟩ (multiReduction .maximumf [1] ⟨1, ![M]⟩ Y 0xFF800000#32 hr hφ hmax) hc) hb (ix2 p q)
        = rowMax Y p := fun p q => by
    rw [broadcastTo_a1_ab_apply, Cert.Layout.cast_vec_col_apply, reduce_max_row]
  funext i
  obtain ⟨p, q, rfl⟩ : ∃ (p : Fin M) (q : Fin N), i = ix2 p q := ⟨i 0, i 1, eq_ix2 i⟩
  rw [logSoftmax_apply, subf_apply, subf_apply, hm p q, broadcastTo_a1_ab_apply]
  show (Y (ix2 p q) - rowMax Y p) - Ideal.log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc (ix2 p (0 : Fin 1))) = _
  rw [Cert.Layout.cast_vec_col_apply, reduce_add_row]
  refine congrArg (fun s => (Y (ix2 p q) - rowMax Y p) - Ideal.log s) (Finset.sum_congr rfl fun k _ => ?_)
  show Ideal.exp (Y (ix2 p k) - broadcastTo ⟨2, ![M, N]⟩ (shapeCast ⟨2, ![M, 1]⟩ (multiReduction .maximumf [1] ⟨1, ![M]⟩ Y 0xFF800000#32 hr hφ hmax) hc) hb (ix2 p k)) = _
  rw [hm p k]

/-- Bias, then the vector unit's logarithm of the row-wise softmax. -/
theorem kernel_biasLogSoftmax (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb2 : (⟨2, ![M, 1]⟩ : Shape).Broadcasts ⟨2, ![M, N]⟩) :
    subf (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2))
      (broadcastTo ⟨2, ![M, N]⟩ (log (shapeCast ⟨2, ![M, 1]⟩ (multiReduction .add [1] ⟨1, ![M]⟩
        (exp (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2)))
        0x00000000#32 hr hφ hadd) hc)) hb2)
      = biasLogSoftmax x0 x1 := by
  rw [addf_cast_broadcastTo]
  exact kernel_logSoftmax _ hr hφ hmax hadd hc hb2

/-! ## As the host spells them -/

/-- A vector reshaped to one row is its one-row layout. -/
theorem shapeCast_row (b : Row N) (h : (⟨1, ![N]⟩ : Shape).ShapeCasts ⟨2, ![1, N]⟩) :
    shapeCast ⟨2, ![1, N]⟩ b h = rowOf b := by
  funext i
  obtain ⟨r, q, rfl⟩ : ∃ (r : Fin 1) (q : Fin N), i = ix2 r q := ⟨i 0, i 1, eq_ix2 i⟩
  obtain rfl : r = 0 := Subsingleton.elim _ _
  exact Cert.Layout.cast_vec_row_apply b h q

/-- The host's bias: the vector broadcast to one row and then over the rows, added. -/
theorem host_addRow (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf A (broadcastInDim ⟨2, ![M, N]⟩ ![0, 1] h2 (broadcastInDim ⟨2, ![1, N]⟩ ![1] h1 b)) = addRow A (rowOf b) := by
  funext i
  obtain ⟨p, q, rfl⟩ : ∃ (p : Fin M) (q : Fin N), i = ix2 p q := ⟨i 0, i 1, eq_ix2 i⟩
  show A (ix2 p q) + broadcastInDim ⟨2, ![M, N]⟩ ![0, 1] h2 (broadcastInDim ⟨2, ![1, N]⟩ ![1] h1 b) (ix2 p q) = A (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The host's bias and rectifier. -/
theorem host_biasRelu (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (rowOf b) := by
  rw [host_addRow]
  exact maximumf_broadcastInDim_zero _ h0

/-- The maximum with minus infinity changes nothing. -/
theorem max_negInf (z : EReal) : max negInf z = z := by
  show max (Ideal.ofBits .f32 0xFF800000#32) z = z
  simp [Ideal.ofBits, Ideal.ieee]

/-- A column broadcast over the rows' second axis by the host, read at (p, q): the column's entry p. -/
theorem broadcastInDim_a1_ab_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if M = 1 then 0 else p.val
      split
      · have := p.isLt; omega
      · rfl
    | ⟨1, _⟩ =>
      show 0 = if (1 : ℕ) = 1 then 0 else q.val
      rw [if_pos rfl])

/-- The host's row maximum from minus infinity, at row p: the row's largest entry. -/
theorem host_reduce_max_row (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf Y (constant (F := Ideal) ⟨0, ![]⟩ .f32 0xFF800000#32) hrt hu (ix1 p) = rowMax Y p := by
  rw [Host.reduce_eq_fold_single FloatOps.maximumf Y _ hrt hr hu]
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- The host's row sum from zero, at row p. -/
theorem host_reduce_add_row (Z : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd Z (constant (F := Ideal) ⟨0, ![]⟩ .f32 0x00000000#32) hrt hu (ix1 p) = ∑ k : Fin N, Z (ix2 p k) := by
  simp only [Host.reduceAdd, Ideal.hostReduceAdd_def]
  rw [Ideal.hostReduceAdd_single hrt hr]
  show Ideal.ofBits .f32 0x00000000#32 + ∑ k : Fin N, Z (hr.lift (ix1 p) k) = _
  rw [Ideal.ofBits_zero_f32, zero_add]
  exact Finset.sum_congr rfl fun k _ => congrArg Z (lift_axis1 hr p k)

/-- The host's logarithm of the row-wise softmax: the row maxima (taken once more against minus infinity) and the row
    sums are reductions broadcast back to a column and then over the row. -/
theorem host_logSoftmax (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hb0 : (⟨0, ![]⟩ : Shape).BroadcastsInDim ⟨1, ![M]⟩ ![]) (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu)))))
      (broadcastInDim ⟨2, ![M, N]⟩ ![0, 1] hb2 (Host.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu))))
      = logSoftmax Y := by
  have hm : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p q)
        = rowMax Y p := fun p q => by
    rw [broadcastInDim_a1_ab_apply, Cert.Layout.bcast_vec_col_apply, maximumf_apply, Cert.Layout.bcast_scalar_apply,
      host_reduce_max_row Y hrt hr hu p]
    exact max_negInf _
  funext i
  obtain ⟨p, q, rfl⟩ : ∃ (p : Fin M) (q : Fin N), i = ix2 p q := ⟨i 0, i 1, eq_ix2 i⟩
  rw [logSoftmax_apply, subf_apply, subf_apply, hm p q, broadcastInDim_a1_ab_apply]
  show (Y (ix2 p q) - rowMax Y p) - Ideal.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu) (ix2 p (0 : Fin 1))) = _
  rw [Cert.Layout.bcast_vec_col_apply, host_reduce_add_row _ hrt hr hu p]
  refine congrArg (fun s => (Y (ix2 p q) - rowMax Y p) - Ideal.log s) (Finset.sum_congr rfl fun k _ => ?_)
  show Ideal.exp (Y (ix2 p k) - broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p k)) = _
  rw [hm p k]

end Cert.Gcn

end
-- ==== Proof.LibAttention.lean ====
/-
  One head of cosine-similarity attention on the extended reals, entry by entry, generic in the sizes.

  Every row of the queries and of the keys is divided by the larger of its Euclidean length and a bound; the
  scores are the inner products of a normalised query row with every normalised key row; each row of scores
  goes through the softmax — the exponential of the entry minus the row's largest entry, divided by the sum
  over the row of those exponentials —; the result is the product of the softmax table with the values.

  The vector unit's spelling of the head (lane sums and lane maxima kept as columns by a cast and broadcast
  back over the row, a change of float format before each product, the key matrix transposed, both products
  taken into a zero accumulator) is that one function of the three matrices.
-/
import proofs.«158570_j59373627899918_1_alg».proof.Proof.LibRowSoftmax

noncomputable section

open scoped BigOperators

namespace Cert.Attention

open Cert.Dense Cert.Gcn Idealize.ShloMosaic Idealize.ShloMosaic.ValueIdx

variable {M N K D : ℕ}

/-- The sum of the squares of row p. -/
def rowSq (X : Mat M K) (p : Fin M) : EReal := ∑ k : Fin K, X (ix2 p k) * X (ix2 p k)

/-- Every row divided by the larger of its Euclidean length and the bound ε. -/
def normRows (ε : EReal) (X : Mat M K) : Mat M K := fun i =>
  Ideal.div (X i) (max (Ideal.sqrt (rowSq X (i 0))) ε)

/-- The table of inner products: entry (p, q) is row p of A against row q of B. -/
def gram (A : Mat M K) (B : Mat N K) : Mat M N := fun i => ∑ k : Fin K, A (ix2 (i 0) k) * B (ix2 (i 1) k)

/-- The row-wise softmax: exp (s − m) over the sum along the row of exp (s − m), m the row's largest entry. -/
def softmaxRows (S : Mat M N) : Mat M N := fun i =>
  Ideal.div (Ideal.exp (S i - rowMax S (i 0))) (∑ k : Fin N, Ideal.exp (S (ix2 (i 0) k) - rowMax S (i 0)))

/-- One attention head: the softmax of the scores of the normalised rows, times the values. -/
def head (ε : EReal) (Q : Mat M K) (Kx : Mat N K) (V : Mat N D) : Mat M D :=
  mm (softmaxRows (gram (normRows ε Q) (normRows ε Kx))) V

theorem normRows_apply (ε : EReal) (X : Mat M K) (p : Fin M) (q : Fin K) :
    normRows ε X (ix2 p q) = Ideal.div (X (ix2 p q)) (max (Ideal.sqrt (rowSq X p)) ε) := rfl

theorem gram_apply (A : Mat M K) (B : Mat N K) (p : Fin M) (q : Fin N) :
    gram A B (ix2 p q) = ∑ k : Fin K, A (ix2 p k) * B (ix2 q k) := rfl

theorem softmaxRows_apply (S : Mat M N) (p : Fin M) (q : Fin N) :
    softmaxRows S (ix2 p q)
      = Ideal.div (Ideal.exp (S (ix2 p q) - rowMax S p)) (∑ k : Fin N, Ideal.exp (S (ix2 p k) - rowMax S p)) := rfl

theorem head_apply (ε : EReal) (Q : Mat M K) (Kx : Mat N K) (V : Mat N D) (p : Fin M) (q : Fin D) :
    head ε Q Kx V (ix2 p q)
      = ∑ k : Fin N, softmaxRows (gram (normRows ε Q) (normRows ε Kx)) (ix2 p k) * V (ix2 k q) := rfl

/-! ## As the vector unit spells it -/

/-- A transposed matrix read at (k, q): the matrix at (q, k). -/
theorem transpose_swap_apply {α : Type} (B : (⟨2, ![N, K]⟩ : Shape).Idx → α)
    (h : (⟨2, ![N, K]⟩ : Shape).Transposes [1, 0] ⟨2, ![K, N]⟩) (k : Fin K) (q : Fin N) :
    transpose ⟨2, ![K, N]⟩ [1, 0] B h (ix2 k q) = B (ix2 q k) :=
  transpose_apply [1, 0] B h (ix2 k q) (ix2 q k) (fun b => by
    match b with
    | ⟨0, _⟩ => rfl
    | ⟨1, _⟩ => rfl)

/-- The rows divided by the larger of the root of their lane sum of squares, kept as a column, and a splat bound. -/
theorem kernel_normRows (w : BitVec 32) (X : FVec Ideal ⟨2, ![M, K]⟩ .f32)
    (hr : (⟨2, ![M, K]⟩ : Shape).Reduces [1] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    divf X (broadcastTo ⟨2, ![M, K]⟩ (maximumf
        (sqrt (shapeCast ⟨2, ![M, 1]⟩ (multiReduction .add [1] ⟨1, ![M]⟩ (mulf X X) 0x00000000#32 hr hφ hadd) hc))
        (broadcast ⟨2, ![M, 1]⟩ (Scalar.ofBits (F := Ideal) .f32 w))) hb)
      = normRows (Ideal.ofBits .f32 w) X := by
  funext i
  obtain ⟨p, q, rfl⟩ : ∃ (p : Fin M) (q : Fin K), i = ix2 p q := ⟨i 0, i 1, eq_ix2 i⟩
  rw [normRows_apply, divf_apply, broadcastTo_a1_ab_apply, maximumf_apply]
  show Ideal.div (X (ix2 p q)) (max (Ideal.sqrt (shapeCast ⟨2, ![M, 1]⟩
      (multiReduction .add [1] ⟨1, ![M]⟩ (mulf X X) 0x00000000#32 hr hφ hadd) hc (ix2 p (0 : Fin 1)))) (Ideal.ofBits .f32 w)) = _
  rw [Cert.Layout.cast_vec_col_apply, reduce_add_row]
  rfl

/-- A product with the transposed right operand into a zero accumulator is the table of inner products of the rows. -/
theorem kernel_gram {φ₁ φ₂ : FTy} (prec : Option ContractPrecision) (A : FVec Ideal ⟨2, ![M, K]⟩ φ₁) (B : FVec Ideal ⟨2, ![N, K]⟩ φ₂)
    (h : (⟨2, ![N, K]⟩ : Shape).Transposes [1, 0] ⟨2, ![K, N]⟩) :
    matmul (DotDims.plain M K N) prec A (transpose ⟨2, ![K, N]⟩ [1, 0] B h) (constant (F := Ideal) ⟨2, ![M, N]⟩ .f32 0x00000000#32)
      = gram A B := by
  rw [matmul_plain_zero]
  funext i
  obtain ⟨p, q, rfl⟩ : ∃ (p : Fin M) (q : Fin N), i = ix2 p q := ⟨i 0, i 1, eq_ix2 i⟩
  show ∑ k : Fin K, A (ix2 p k) * transpose ⟨2, ![K, N]⟩ [1, 0] B h (ix2 k q) = ∑ k : Fin K, A (ix2 p k) * B (ix2 q k)
  exact Finset.sum_congr rfl fun k _ => by rw [transpose_swap_apply]

/-- The vector unit's row-wise softmax: the row maxima and the row sums are lane reductions kept as columns and
    broadcast back over the row. -/
theorem kernel_softmaxRows (S : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    divf (exp (subf S (broadcastTo ⟨2, ![M, N]⟩ (shapeCast ⟨2, ![M, 1]⟩ (multiReduction .maximumf [1] ⟨1, ![M]⟩ S 0xFF800000#32 hr hφ hmax) hc) hb)))
      (broadcastTo ⟨2, ![M, N]⟩ (shapeCast ⟨2, ![M, 1]⟩ (multiReduction .add [1] ⟨1, ![M]⟩
        (exp (subf S (broadcastTo ⟨2, ![M, N]⟩ (shapeCast ⟨2, ![M, 1]⟩ (multiReduction .maximumf [1] ⟨1, ![M]⟩ S 0xFF800000#32 hr hφ hmax) hc) hb)))
        0x00000000#32 hr hφ hadd) hc) hb)
      = softmaxRows S := by
  have hm : ∀ (p : Fin M) (q : Fin N),
      broadcastTo ⟨2, ![M, N]⟩ (shapeCast ⟨2, ![M, 1]⟩ (multiReduction .maximumf [1] ⟨1, ![M]⟩ S 0xFF800000#32 hr hφ hmax) hc) hb (ix2 p q)
        = rowMax S p := fun p q => by
    rw [broadcastTo_a1_ab_apply, Cert.Layout.cast_vec_col_apply, reduce_max_row]
  have he : ∀ (p : Fin M) (q : Fin N),
      exp (subf S (broadcastTo ⟨2, ![M, N]⟩ (shapeCast ⟨2, ![M, 1]⟩ (multiReduction .maximumf [1] ⟨1, ![M]⟩ S 0xFF800000#32 hr hφ hmax) hc) hb)) (ix2 p q)
        = Ideal.exp (S (ix2 p q) - rowMax S p) := fun p q => by
    show Ideal.exp (S (ix2 p q) - broadcastTo ⟨2, ![M, N]⟩ (shapeCast ⟨2, ![M, 1]⟩ (multiReduction .maximumf [1] ⟨1, ![M]⟩ S 0xFF800000#32 hr hφ hmax) hc) hb (ix2 p q)) = _
    rw [hm p q]
  funext i
  obtain ⟨p, q, rfl⟩ : ∃ (p : Fin M) (q : Fin N), i = ix2 p q := ⟨i 0, i 1, eq_ix2 i⟩
  rw [softmaxRows_apply, divf_apply, he p q, broadcastTo_a1_ab_apply, Cert.Layout.cast_vec_col_apply, reduce_add_row]
  exact congrArg (Ideal.div (Ideal.exp (S (ix2 p q) - rowMax S p))) (Finset.sum_congr rfl fun k _ => he p k)

/-- The vector unit's head: both operands of the scores normalised, the formats changed before each product, the
    keys transposed, the softmax of the scores, and the product with the values — each product into zero. -/
theorem kernel_head (w : BitVec 32) (Q : FVec Ideal ⟨2, ![M, K]⟩ .f32) (Kx : FVec Ideal ⟨2, ![N, K]⟩ .f32) (V : FVec Ideal ⟨2, ![N, D]⟩ .f32)
    (d1 : DotDims ⟨2, ![M, K]⟩ ⟨2, ![K, N]⟩ ⟨2, ![M, N]⟩) (hd1 : d1 = DotDims.plain M K N)
    (d2 : DotDims ⟨2, ![M, N]⟩ ⟨2, ![N, D]⟩ ⟨2, ![M, D]⟩) (hd2 : d2 = DotDims.plain M N D)
    (prec1 prec2 : Option ContractPrecision)
    (hrQ : (⟨2, ![M, K]⟩ : Shape).Reduces [1] (⟨1, ![M]⟩ : Shape)) (hrK : (⟨2, ![N, K]⟩ : Shape).Reduces [1] (⟨1, ![N]⟩ : Shape))
    (hrS : (⟨2, ![M, N]⟩ : Shape).Reduces [1] (⟨1, ![M]⟩ : Shape))
    (hφ : FKind.Formats .f32) (hadd : (0x00000000#32 : BitVec 32) = FKind.add.neutral .f32 hφ)
    (hmax : (0xFF800000#32 : BitVec 32) = FKind.maximumf.neutral .f32 hφ)
    (hcM : (⟨1, ![M]⟩ : Shape).ShapeCasts ⟨2, ![M, 1]⟩) (hcN : (⟨1, ![N]⟩ : Shape).ShapeCasts ⟨2, ![N, 1]⟩)
    (hbQ : (⟨2, ![M, 1]⟩ : Shape).Broadcasts ⟨2, ![M, K]⟩) (hbK : (⟨2, ![N, 1]⟩ : Shape).Broadcasts ⟨2, ![N, K]⟩)
    (hbS : (⟨2, ![M, 1]⟩ : Shape).Broadcasts ⟨2, ![M, N]⟩)
    (ht : (⟨2, ![N, K]⟩ : Shape).Transposes [1, 0] ⟨2, ![K, N]⟩) (hlt : FTy.bits .bf16 < FTy.bits .f32) :
    matmul d2 prec2
      (truncf .bf16
        (divf
          (exp (subf
            (matmul d1 prec1
              (truncf .bf16 (divf Q (broadcastTo ⟨2, ![M, K]⟩ (maximumf
                (sqrt (shapeCast ⟨2, ![M, 1]⟩ (multiReduction .add [1] ⟨1, ![M]⟩ (mulf Q Q) 0x00000000#32 hrQ hφ hadd) hcM))
                (broadcast ⟨2, ![M, 1]⟩ (Scalar.ofBits (F := Ideal) .f32 w))) hbQ)) hlt)
              (transpose ⟨2, ![K, N]⟩ [1, 0]
                (truncf .bf16 (divf Kx (broadcastTo ⟨2, ![N, K]⟩ (maximumf
                  (sqrt (shapeCast ⟨2, ![N, 1]⟩ (multiReduction .add [1] ⟨1, ![N]⟩ (mulf Kx Kx) 0x00000000#32 hrK hφ hadd) hcN))
                  (broadcast ⟨2, ![N, 1]⟩ (Scalar.ofBits (F := Ideal) .f32 w))) hbK)) hlt) ht)
              (constant (F := Ideal) ⟨2, ![M, N]⟩ .f32 0x00000000#32))
            (broadcastTo ⟨2, ![M, N]⟩ (shapeCast ⟨2, ![M, 1]⟩ (multiReduction .maximumf [1] ⟨1, ![M]⟩
              (matmul d1 prec1
                (truncf .bf16 (divf Q (broadcastTo ⟨2, ![M, K]⟩ (maximumf
                  (sqrt (shapeCast ⟨2, ![M, 1]⟩ (multiReduction .add [1] ⟨1, ![M]⟩ (mulf Q Q) 0x00000000#32 hrQ hφ hadd) hcM))
                  (broadcast ⟨2, ![M, 1]⟩ (Scalar.ofBits (F := Ideal) .f32 w))) hbQ)) hlt)
                (transpose ⟨2, ![K, N]⟩ [1, 0]
                  (truncf .bf16 (divf Kx (broadcastTo ⟨2, ![N, K]⟩ (maximumf
                    (sqrt (shapeCast ⟨2, ![N, 1]⟩ (multiReduction .add [1] ⟨1, ![N]⟩ (mulf Kx Kx) 0x00000000#32 hrK hφ hadd) hcN))
                    (broadcast ⟨2, ![N, 1]⟩ (Scalar.ofBits (F := Ideal) .f32 w))) hbK)) hlt) ht)
                (constant (F := Ideal) ⟨2, ![M, N]⟩ .f32 0x00000000#32))
              0xFF800000#32 hrS hφ hmax) hcM) hbS)))
          (broadcastTo ⟨2, ![M, N]⟩ (shapeCast ⟨2, ![M, 1]⟩ (multiReduction .add [1] ⟨1, ![M]⟩
            (exp (subf
              (matmul d1 prec1
                (truncf .bf16 (divf Q (broadcastTo ⟨2, ![M, K]⟩ (maximumf
                  (sqrt (shapeCast ⟨2, ![M, 1]⟩ (multiReduction .add [1] ⟨1, ![M]⟩ (mulf Q Q) 0x00000000#32 hrQ hφ hadd) hcM))
                  (broadcast ⟨2, ![M, 1]⟩ (Scalar.ofBits (F := Ideal) .f32 w))) hbQ)) hlt)
                (transpose ⟨2, ![K, N]⟩ [1, 0]
                  (truncf .bf16 (divf Kx (broadcastTo ⟨2, ![N, K]⟩ (maximumf
                    (sqrt (shapeCast ⟨2, ![N, 1]⟩ (multiReduction .add [1] ⟨1, ![N]⟩ (mulf Kx Kx) 0x00000000#32 hrK hφ hadd) hcN))
                    (broadcast ⟨2, ![N, 1]⟩ (Scalar.ofBits (F := Ideal) .f32 w))) hbK)) hlt) ht)
                (constant (F := Ideal) ⟨2, ![M, N]⟩ .f32 0x00000000#32))
              (broadcastTo ⟨2, ![M, N]⟩ (shapeCast ⟨2, ![M, 1]⟩ (multiReduction .maximumf [1] ⟨1, ![M]⟩
                (matmul d1 prec1
                  (truncf .bf16 (divf Q (broadcastTo ⟨2, ![M, K]⟩ (maximumf
                    (sqrt (shapeCast ⟨2, ![M, 1]⟩ (multiReduction .add [1] ⟨1, ![M]⟩ (mulf Q Q) 0x00000000#32 hrQ hφ hadd) hcM))
                    (broadcast ⟨2, ![M, 1]⟩ (Scalar.ofBits (F := Ideal) .f32 w))) hbQ)) hlt)
                  (transpose ⟨2, ![K, N]⟩ [1, 0]
                    (truncf .bf16 (divf Kx (broadcastTo ⟨2, ![N, K]⟩ (maximumf
                      (sqrt (shapeCast ⟨2, ![N, 1]⟩ (multiReduction .add [1] ⟨1, ![N]⟩ (mulf Kx Kx) 0x00000000#32 hrK hφ hadd) hcN))
                      (broadcast ⟨2, ![N, 1]⟩ (Scalar.ofBits (F := Ideal) .f32 w))) hbK)) hlt) ht)
                  (constant (F := Ideal) ⟨2, ![M, N]⟩ .f32 0x00000000#32))
                0xFF800000#32 hrS hφ hmax) hcM) hbS)))
            0x00000000#32 hrS hφ hadd) hcM) hbS))
        hlt)
      (truncf .bf16 V hlt)
      (constant (F := Ideal) ⟨2, ![M, D]⟩ .f32 0x00000000#32)
      = head (Ideal.ofBits .f32 w) Q Kx V := by
  subst hd1 hd2
  simp only [truncf_id]
  rw [kernel_normRows w Q hrQ hφ hadd hcM hbQ, kernel_normRows w Kx hrK hφ hadd hcN hbK, kernel_gram,
    kernel_softmaxRows _ hrS hφ hmax hadd hcM hbS, matmul_plain_zero]
  rfl

end Cert.Attention

end
-- ==== Proof.Spec.lean ====
/-
  Cosine-similarity attention over 8 × 16 heads of 1024 rows and 64 columns, as one function of the three
  argument arrays, index by index: entry (b, h, n, d) of the result is entry (n, d) of the attention head
  computed from the three 1024 × 64 matrices that (b, h) selects. The bound under the row lengths is the
  single-precision word nearest 1e-12, read exactly.
-/
import proofs.«158570_j59373627899918_1_alg».proof.Proof.LibAttention

noncomputable section

namespace Cert.CosAttn

open Cert.Dense Cert.Attention Idealize.ShloMosaic Idealize.ShloMosaic.ValueIdx

/-- An array of 8 × 16 matrices of 1024 rows and 64 columns. -/
abbrev Arr : Type := (⟨4, ![8, 16, 1024, 64]⟩ : Shape).Idx → EReal

/-- The bound under the row lengths. -/
def eps : EReal := Ideal.ofBits .f32 0x2B8CBCCC#32

/-- The matrix of head (b, h). -/
def slice (x : Arr) (b : Fin 8) (h : Fin 16) : Mat 1024 64 := fun i => x (ix4 b h (i 0) (i 1))

/-- Every head's attention, laid out like the arguments. -/
def attn (q k v : Arr) : Arr := fun i =>
  head eps (slice q (i 0) (i 1)) (slice k (i 0) (i 1)) (slice v (i 0) (i 1)) (ix2 (i 2) (i 3))

/-- The re-layout both programs end with: the heads moved behind the rows, then each row's 16 heads of 64
    columns laid end to end as one row of 1024. -/
def relayout (ht : (⟨4, ![8, 16, 1024, 64]⟩ : Shape).Transposes [0, 2, 1, 3] ⟨4, ![8, 1024, 16, 64]⟩)
    (hc : (⟨4, ![8, 1024, 16, 64]⟩ : Shape).ShapeCasts ⟨3, ![8, 1024, 1024]⟩) (x : Arr) :
    (⟨3, ![8, 1024, 1024]⟩ : Shape).Idx → EReal :=
  shapeCast ⟨3, ![8, 1024, 1024]⟩ (transpose ⟨4, ![8, 1024, 16, 64]⟩ [0, 2, 1, 3] x ht) hc

theorem slice_apply (x : Arr) (b : Fin 8) (h : Fin 16) (n : Fin 1024) (d : Fin 64) :
    slice x b h (ix2 n d) = x (ix4 b h n d) := rfl

theorem attn_apply (q k v : Arr) (b : Fin 8) (h : Fin 16) (n : Fin 1024) (d : Fin 64) :
    attn q k v (ix4 b h n d) = head eps (slice q b h) (slice k b h) (slice v b h) (ix2 n d) := rfl

end Cert.CosAttn

end
-- ==== Proof.RefHeads.lean ====
/-
  The reference computes the attention of every head: its normalisation, scores, softmax and product with the
  values, read one operation at a time at an index (b, h, n, ·), are those of the head that (b, h) selects.
-/
import proofs.«158570_j59373627899918_1_alg».proof.Proof.Gen.ReferenceIdeal.Read
import proofs.«158570_j59373627899918_1_alg».proof.Proof.Spec

noncomputable section

open scoped BigOperators

namespace Cert.CosAttn.Ref

open Cert.ReferenceIdeal Cert.ReferenceIdeal.Gen Cert.ReferenceIdeal.Read Cert.Dense Cert.Gcn Cert.Attention Cert.CosAttn
open Idealize.ShloMosaic Idealize.ShloMosaic.ValueIdx

/-- The scores of head (b, h): the inner products of its normalised query rows with its normalised key rows. -/
abbrev scores (q k : Arr) (b : Fin 8) (h : Fin 16) : Mat 1024 1024 :=
  gram (normRows eps (slice q b h)) (normRows eps (slice k b h))

/-- The sum of squares along the last axis, at (b, h, n): that of row n of the head's matrix. -/
theorem sumsq_apply (x : Arr) (b : Fin 8) (h : Fin 16) (n : Fin 1024) :
    val_main_v1 (F := Ideal) x (ix3 b h n) = rowSq (slice x b h) n := by
  rw [val_main_v1_apply, val_main_cst_apply]
  show Ideal.ofBits .f32 0x00000000#32 + _ = _
  rw [Ideal.ofBits_zero_f32, zero_add]
  refine Finset.sum_congr rfl fun j _ => ?_
  rw [val_main_v0_apply, show idx_main_v1 (ix3 b h n) j = ix4 b h n j from funext fun a => Fin.ext (by
    match a with
    | ⟨0, _⟩ => rfl
    | ⟨1, _⟩ => rfl
    | ⟨2, _⟩ => rfl
    | ⟨3, _⟩ => rfl)]
  rfl

/-- The normalised array at (b, h, n, d): the head's normalised matrix at (n, d). -/
theorem norm_apply (x : Arr) (b : Fin 8) (h : Fin 16) (n : Fin 1024) (d : Fin 64) :
    val_main_v7 (F := Ideal) x (ix4 b h n d) = normRows eps (slice x b h) (ix2 n d) := by
  rw [val_main_v7_apply, val_main_v6_apply, val_main_v5_apply, val_main_v3_apply, val_main_v2_apply, val_main_v4_apply,
    val_main_cst_0_apply]
  rw [show idx_main_v2 (idx_main_v6 (ix4 b h n d)) = ix3 b h n from funext fun a => Fin.ext (by
    match a with
    | ⟨0, _⟩ => rfl
    | ⟨1, _⟩ => rfl
    | ⟨2, _⟩ => rfl), sumsq_apply]
  rfl

/-- The keys are normalised by the same operations as the queries. -/
theorem norm_keys (x : Arr) : val_main_v15 (F := Ideal) x = val_main_v7 (F := Ideal) x := rfl

/-- The scores at (b, h, n, m). -/
theorem scores_apply (q k : Arr) (b : Fin 8) (h : Fin 16) (n m : Fin 1024) :
    val_main_v16 (F := Ideal) q k (ix4 b h n m) = scores q k b h (ix2 n m) := by
  rw [val_main_v16_apply]
  show _ = ∑ j : Fin 64, normRows eps (slice q b h) (ix2 n j) * normRows eps (slice k b h) (ix2 m j)
  refine Finset.sum_congr rfl fun j _ => ?_
  rw [show lidx_main_v16 (ix4 b h n m) j = ix4 b h n j from funext fun a => Fin.ext (by
      match a with
      | ⟨0, _⟩ => rfl
      | ⟨1, _⟩ => rfl
      | ⟨2, _⟩ => rfl
      | ⟨3, _⟩ => rfl),
    show ridx_main_v16 (ix4 b h n m) j = ix4 b h m j from funext fun a => Fin.ext (by
      match a with
      | ⟨0, _⟩ => rfl
      | ⟨1, _⟩ => rfl
      | ⟨2, _⟩ => rfl
      | ⟨3, _⟩ => rfl),
    norm_apply, norm_keys, norm_apply]

/-- The last axis of the scores is the one reduced. -/
theorem hred : S8x16x1024x1024.Reduces [3] S8x16x1024 := by decide

/-- The reduced index (b, h, n) with m put back on the last axis. -/
theorem lift_last (b : Fin 8) (h : Fin 16) (n : Fin 1024) (m : Fin (S8x16x1024x1024.size 3)) :
    hred.lift (ix3 b h n) m = ix4 b h n (⟨m.val, m.isLt⟩ : Fin 1024) := by
  funext c; apply Fin.ext
  fin_cases c <;> rfl

/-- The row maxima at (b, h, n): the largest entry of row n of the head's scores (the maximum taken once more
    against minus infinity changes nothing). -/
theorem rowmax_apply (q k : Arr) (b : Fin 8) (h : Fin 16) (n : Fin 1024) :
    val_main_v19 (F := Ideal) q k (ix3 b h n) = rowMax (scores q k b h) n := by
  rw [val_main_v19_apply, val_main_v18_apply, val_main_cst_4_apply]
  show max negInf (val_main_v17 (F := Ideal) q k (ix3 b h n)) = _
  rw [max_negInf]
  unfold val_main_v17
  rw [Host.reduce_eq_fold_single FloatOps.maximumf _ _ reducesTo_S8x16x1024x1024_S8x16x1024_d3 hred h_S_]
  show Finset.fold max negInf (val_main_v16 (F := Ideal) q k ∘ hred.lift (ix3 b h n)) (Finset.univ : Finset (Fin 1024)) = _
  exact congrArg (fun f => Finset.fold max negInf f (Finset.univ : Finset (Fin 1024))) (funext fun m => by
    show val_main_v16 (F := Ideal) q k (hred.lift (ix3 b h n) m) = _
    rw [lift_last, scores_apply]
    rfl)

/-- The exponentials at (b, h, n, m). -/
theorem exp_apply (q k : Arr) (b : Fin 8) (h : Fin 16) (n m : Fin 1024) :
    val_main_v23 (F := Ideal) q k (ix4 b h n m) = Ideal.exp (scores q k b h (ix2 n m) - rowMax (scores q k b h) n) := by
  rw [val_main_v23_apply, val_main_v22_apply, val_main_v21_apply, val_main_v20_apply, scores_apply]
  rw [show idx_main_v20 (idx_main_v21 (ix4 b h n m)) = ix3 b h n from funext fun a => Fin.ext (by
    match a with
    | ⟨0, _⟩ => rfl
    | ⟨1, _⟩ => rfl
    | ⟨2, _⟩ => rfl), rowmax_apply]
  rfl

/-- The softmax at (b, h, n, m). -/
theorem softmax_apply (q k : Arr) (b : Fin 8) (h : Fin 16) (n m : Fin 1024) :
    val_main_v27 (F := Ideal) q k (ix4 b h n m) = softmaxRows (scores q k b h) (ix2 n m) := by
  rw [val_main_v27_apply, val_main_v26_apply, val_main_v25_apply, exp_apply, softmaxRows_apply]
  rw [show idx_main_v25 (idx_main_v26 (ix4 b h n m)) = ix3 b h n from funext fun a => Fin.ext (by
    match a with
    | ⟨0, _⟩ => rfl
    | ⟨1, _⟩ => rfl
    | ⟨2, _⟩ => rfl), val_main_v24_apply, val_main_cst_5_apply]
  show Ideal.div _ (Ideal.ofBits .f32 0x00000000#32 + _) = _
  rw [Ideal.ofBits_zero_f32, zero_add]
  refine congrArg (Ideal.div _) (Finset.sum_congr rfl fun j _ => ?_)
  rw [show idx_main_v24 (ix3 b h n) j = ix4 b h n j from funext fun a => Fin.ext (by
    match a with
    | ⟨0, _⟩ => rfl
    | ⟨1, _⟩ => rfl
    | ⟨2, _⟩ => rfl
    | ⟨3, _⟩ => rfl), exp_apply]

/-- The reference's product with the values, before its final re-layout, is every head's attention. -/
theorem heads_eq (q k v : Arr) : val_main_v28 (F := Ideal) q k v = attn q k v := by
  funext i
  obtain ⟨b, h, n, d, rfl⟩ : ∃ (b : Fin 8) (h : Fin 16) (n : Fin 1024) (d : Fin 64), i = ix4 b h n d :=
    ⟨i 0, i 1, i 2, i 3, eq_ix4 i⟩
  rw [val_main_v28_apply, attn_apply, head_apply]
  refine Finset.sum_congr rfl fun j _ => ?_
  rw [show lidx_main_v28 (ix4 b h n d) j = ix4 b h n j from funext fun a => Fin.ext (by
      match a with
      | ⟨0, _⟩ => rfl
      | ⟨1, _⟩ => rfl
      | ⟨2, _⟩ => rfl
      | ⟨3, _⟩ => rfl),
    show ridx_main_v28 (ix4 b h n d) j = ix4 b h j d from funext fun a => Fin.ext (by
      match a with
      | ⟨0, _⟩ => rfl
      | ⟨1, _⟩ => rfl
      | ⟨2, _⟩ => rfl
      | ⟨3, _⟩ => rfl),
    softmax_apply]
  rfl

/-- The reference's result: the re-layout of every head's attention. -/
theorem result_eq (q k v : Arr) :
    val_main_v30 (F := Ideal) q k v
      = relayout transposes_S8x16x1024x64_S8x1024x16x64_0_2_1_3 shapeCasts_S8x1024x16x64_S8x1024x1024 (attn q k v) :=
  (show val_main_v30 (F := Ideal) q k v
      = relayout transposes_S8x16x1024x64_S8x1024x16x64_0_2_1_3 shapeCasts_S8x1024x16x64_S8x1024x1024
          (val_main_v28 (F := Ideal) q k v) from rfl).trans
    (congrArg (relayout transposes_S8x16x1024x64_S8x1024x16x64_0_2_1_3 shapeCasts_S8x1024x16x64_S8x1024x1024) (heads_eq q k v))

end Cert.CosAttn.Ref

end
-- ==== Proof.KernelHead.lean ====
/-
  The body's arithmetic on its three staged blocks: each block, 1 × 1 × 1024 × 64, is one head's matrix,
  and what the body stores is the attention head of the three matrices, laid out as such a block again.
-/
import proofs.«158570_j59373627899918_1_alg».proof.Proof.Gen.KernelIdeal.Skeleton
import proofs.«158570_j59373627899918_1_alg».proof.Proof.Spec
import Idealize.ShloMosaic.Lib.Pipeline.Value

noncomputable section

namespace Cert.CosAttn.Kern

open Cert.KernelIdeal Cert.KernelIdeal.Gen Cert.Dense Cert.Attention Cert.CosAttn
open Idealize.ShloMosaic Idealize.ShloMosaic.ValueIdx

/-- A staged block as its 1024 × 64 matrix. -/
def blockMat (x : Vec Ideal S1x1x1024x64 .f32) : Mat 1024 64 :=
  shapeCast S1024x64 x shapeCasts_S1x1x1024x64_S1024x64

/-- Entry (n, d) of the matrix is entry (0, 0, n, d) of the block: the two leading axes have one coordinate. -/
theorem blockMat_apply (x : Vec Ideal S1x1x1024x64 .f32) (n : Fin 1024) (d : Fin 64) :
    blockMat x (ix2 n d) = x (ix4 (0 : Fin 1) (0 : Fin 1) n d) :=
  shapeCast_apply x shapeCasts_S1x1x1024x64_S1024x64 (ix2 n d) (ix4 (0 : Fin 1) (0 : Fin 1) n d) (by
    rw [Shape.rowMajor_val_four, Shape.rowMajor_val_two]
    show (((0 : Fin 1).val * 1 + (0 : Fin 1).val) * 1024 + n.val) * 64 + d.val = n.val * 64 + d.val
    simp)

/-- The body's value before the store: the head of the three blocks' matrices. -/
theorem pay_head (x0 x1 x2 : Vec Ideal S1x1x1024x64 .f32) :
    k0_pay2 (F := Ideal) x0 x1 x2 = head eps (blockMat x0) (blockMat x1) (blockMat x2) := by
  unfold k0_pay2
  exact kernel_head 0x2B8CBCCC#32 (blockMat x0) (blockMat x1) (blockMat x2)
    dot_S1024x64_S64x1024_S1024x1024_1_0_0_1_n_n rfl dot_S1024x1024_S1024x64_S1024x64_1_0_0_1_n_n rfl none none
    reduces_S1024x64_S1024 reduces_S1024x64_S1024 reduces_S1024x1024_S1024 (.inl rfl) rfl rfl
    shapeCasts_S1024_S1024x1 shapeCasts_S1024_S1024x1 broadcasts_S1024x1_S1024x64 broadcasts_S1024x1_S1024x64
    broadcasts_S1024x1_S1024x1024 transposes_S1024x64_p1_0_S64x1024 bitsLt_bf16_f32

/-- What the body stores, at (a, a', n, d): entry (n, d) of the head of the three blocks' matrices. -/
theorem store_apply (x0 x1 x2 : Vec Ideal S1x1x1024x64 .f32) (j : S1x1x1024x64.Idx) :
    k0_pay1 (F := Ideal) (k0_pay2 (F := Ideal) x0 x1 x2) j
      = head eps (blockMat x0) (blockMat x1) (blockMat x2) (ix2 (j 2) (j 3)) := by
  rw [pay_head]
  unfold k0_pay1
  refine shapeCast_apply _ shapeCasts_S1024x64_S1x1x1024x64 j (ix2 (j 2) (j 3)) ?_
  rw [Shape.rowMajor_val_four, Shape.rowMajor_val_two]
  have h0 : (j 0).val < 1 := (j 0).isLt
  have h1 : (j 1).val < 1 := (j 1).isLt
  show (j 2).val * 64 + (j 3).val = (((j 0).val * 1 + (j 1).val) * 1024 + (j 2).val) * 64 + (j 3).val
  omega

/-- If the three blocks are head (b, h) of three arrays, the body stores head (b, h) of their attention. -/
theorem store_head (q k v : Arr) (x0 x1 x2 : Vec Ideal S1x1x1024x64 .f32) (b : Fin 8) (h : Fin 16)
    (h0 : ∀ (n : Fin 1024) (d : Fin 64), x0 (ix4 (0 : Fin 1) (0 : Fin 1) n d) = q (ix4 b h n d))
    (h1 : ∀ (n : Fin 1024) (d : Fin 64), x1 (ix4 (0 : Fin 1) (0 : Fin 1) n d) = k (ix4 b h n d))
    (h2 : ∀ (n : Fin 1024) (d : Fin 64), x2 (ix4 (0 : Fin 1) (0 : Fin 1) n d) = v (ix4 b h n d))
    (j : S1x1x1024x64.Idx) :
    k0_pay1 (F := Ideal) (k0_pay2 (F := Ideal) x0 x1 x2) j = attn q k v (ix4 b h (j 2) (j 3)) := by
  have e : ∀ (x : Vec Ideal S1x1x1024x64 .f32) (y : Arr),
      (∀ (n : Fin 1024) (d : Fin 64), x (ix4 (0 : Fin 1) (0 : Fin 1) n d) = y (ix4 b h n d)) → blockMat x = slice y b h :=
    fun x y hxy => funext fun i => by
      obtain ⟨n, d, rfl⟩ : ∃ (n : Fin 1024) (d : Fin 64), i = ix2 n d := ⟨i 0, i 1, eq_ix2 i⟩
      rw [blockMat_apply, slice_apply, hxy]
  rw [store_apply, e x0 q h0, e x1 k h1, e x2 v h2]
  rfl

end Cert.CosAttn.Kern

end
-- ==== Proof.Heads.lean ====
/-
  From the grid's blocks to the whole array. The grid has one point per head (b, h); at that point each of the
  three input windows holds head (b, h) of its array and the output window's block is head (b, h) of the result,
  so what the point writes back is head (b, h) of the attention of the three arrays, and the 8 × 16 blocks
  cover the result array: after the region it holds every head's attention.
-/
import proofs.«158570_j59373627899918_1_alg».proof.Proof.Gen.KernelIdeal.Frame
import proofs.«158570_j59373627899918_1_alg».proof.Proof.KernelHead
import Idealize.ShloMosaic.Lib.Pipeline.Value

set_option maxRecDepth 16384

noncomputable section

namespace Cert.CosAttn.Kern

open Cert.KernelIdeal Cert.KernelIdeal.Gen Cert.Dense Cert.Attention Cert.CosAttn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0, 0, 0] : Fin 4 → Nat) = fun _ => 0 := funext fun a => by fin_cases a <;> rfl

/-- The index maps over the grid: at every point the four windows take the same block, (b, h, 0, 0) with
    b below 8 and h below 16. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) ≤ 7 ∧ win0_3.index t (1 : Fin 4) ≤ 15
    ∧ win0_3.index t (2 : Fin 4) = 0 ∧ win0_3.index t (3 : Fin 4) = 0 :=
  (by decide +kernel : ∀ t : Fin grid0.N, _)

/-- Every head is some point's block. -/
theorem idx_onto : ∀ (b : Fin 8) (h : Fin 16), ∃ t : Fin cfg0.N, win0_3.index t = ![b.val, h.val, 0, 0] :=
  (by decide +kernel : ∀ (b : Fin 8) (h : Fin 16), ∃ t : Fin grid0.N, win0_3.index t = ![b.val, h.val, 0, 0])

/-- What point t writes back is its block of the attention of the three arrays as the region finds them. -/
theorem flushed_eq (c : Dev nD) (t : Fin cfg0.N) :
    (dats m 0 c).flushed 3 t
      = ((cfg0.win 3).blk t).view.read (Elt Ideal) (attn (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S1x1x1024x64) hz]
  obtain ⟨a0, a1, a2, a3, b0, b1, b2, b3, c0, c1, c2, c3, d0, d1, d2, d3⟩ := idx_facts t
  funext j
  show k0_pay1 (F := Ideal) (k0_pay2 (F := Ideal) (iblk m c 0 t) (iblk m c 1 t) (iblk m c 2 t)) j
    = attn (V m c main_arg0) (V m c main_arg1) (V m c main_arg2) (((cfg0.win 3).blk t).view.emb j)
  refine (store_head (V m c main_arg0) (V m c main_arg1) (V m c main_arg2) (iblk m c 0 t) (iblk m c 1 t) (iblk m c 2 t)
    ⟨win0_3.index t (0 : Fin 4), by omega⟩ ⟨win0_3.index t (1 : Fin 4), by omega⟩ ?_ ?_ ?_ j).trans ?_
  · intro n d
    show V m c main_arg0 (((cfg0.win 0).blk t).view.emb (ix4 (0 : Fin 1) (0 : Fin 1) n d)) = V m c main_arg0 _
    refine congrArg (V m c main_arg0) (funext fun a => Fin.ext ?_)
    match a with
    | ⟨0, _⟩ => show win0_0.index t (0 : Fin 4) * 1 + 1 * 0 = win0_3.index t (0 : Fin 4); omega
    | ⟨1, _⟩ => show win0_0.index t (1 : Fin 4) * 1 + 1 * 0 = win0_3.index t (1 : Fin 4); omega
    | ⟨2, _⟩ => show win0_0.index t (2 : Fin 4) * 1024 + 1 * n.val = n.val; omega
    | ⟨3, _⟩ => show win0_0.index t (3 : Fin 4) * 64 + 1 * d.val = d.val; omega
  · intro n d
    show V m c main_arg1 (((cfg0.win 1).blk t).view.emb (ix4 (0 : Fin 1) (0 : Fin 1) n d)) = V m c main_arg1 _
    refine congrArg (V m c main_arg1) (funext fun a => Fin.ext ?_)
    match a with
    | ⟨0, _⟩ => show win0_1.index t (0 : Fin 4) * 1 + 1 * 0 = win0_3.index t (0 : Fin 4); omega
    | ⟨1, _⟩ => show win0_1.index t (1 : Fin 4) * 1 + 1 * 0 = win0_3.index t (1 : Fin 4); omega
    | ⟨2, _⟩ => show win0_1.index t (2 : Fin 4) * 1024 + 1 * n.val = n.val; omega
    | ⟨3, _⟩ => show win0_1.index t (3 : Fin 4) * 64 + 1 * d.val = d.val; omega
  · intro n d
    show V m c main_arg2 (((cfg0.win 2).blk t).view.emb (ix4 (0 : Fin 1) (0 : Fin 1) n d)) = V m c main_arg2 _
    refine congrArg (V m c main_arg2) (funext fun a => Fin.ext ?_)
    match a with
    | ⟨0, _⟩ => show win0_2.index t (0 : Fin 4) * 1 + 1 * 0 = win0_3.index t (0 : Fin 4); omega
    | ⟨1, _⟩ => show win0_2.index t (1 : Fin 4) * 1 + 1 * 0 = win0_3.index t (1 : Fin 4); omega
    | ⟨2, _⟩ => show win0_2.index t (2 : Fin 4) * 1024 + 1 * n.val = n.val; omega
    | ⟨3, _⟩ => show win0_2.index t (3 : Fin 4) * 64 + 1 * d.val = d.val; omega
  · refine congrArg (attn (V m c main_arg0) (V m c main_arg1) (V m c main_arg2)) (funext fun a => Fin.ext ?_)
    have h0 : (j 0).val < 1 := (j 0).isLt
    have h1 : (j 1).val < 1 := (j 1).isLt
    match a with
    | ⟨0, _⟩ => show win0_3.index t (0 : Fin 4) = win0_3.index t (0 : Fin 4) * 1 + 1 * (j 0).val; omega
    | ⟨1, _⟩ => show win0_3.index t (1 : Fin 4) = win0_3.index t (1 : Fin 4) * 1 + 1 * (j 1).val; omega
    | ⟨2, _⟩ => show (j 2).val = win0_3.index t (2 : Fin 4) * 1024 + 1 * (j 2).val; omega
    | ⟨3, _⟩ => show (j 3).val = win0_3.index t (3 : Fin 4) * 64 + 1 * (j 3).val; omega

/-- An index of the result array is in point t's block iff each coordinate is in the block's range on its axis. -/
theorem mem_blk (t : Fin cfg0.N) (i : S8x16x1024x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- Every index of the result array is in the block of the point of its head. -/
theorem cover (i : S8x16x1024x64.Idx) :
    ∃ t : Fin cfg0.N, (cfg0.win 3).flush t = true ∧ i ∈ ((cfg0.win 3).blk t).view.set := by
  obtain ⟨t, ht⟩ := idx_onto (i 0) (i 1)
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  have l2 : (i 2).val < 1024 := (i 2).isLt
  have l3 : (i 3).val < 64 := (i 3).isLt
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- The result array after the region: every head's attention of the three argument arrays. -/
theorem heads_final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 _ (fun t _ => flushed_eq m c t) cover

end Cert.CosAttn.Kern

end
-- ==== Proof.Result.lean ====
/-
  The kernel program's run, read: after the region the result array holds every head's attention, and the two
  host operations that follow re-lay it — heads behind the rows, then each row's heads end to end — into the
  program's result; the argument arrays end as they began.
-/
import proofs.«158570_j59373627899918_1_alg».proof.Proof.Heads
import Idealize.ShloMosaic.Lib.StableHlo.Run

set_option maxRecDepth 16384

noncomputable section

namespace Cert.CosAttn.Kern

open Cert.KernelIdeal Cert.KernelIdeal.Gen Cert.Dense Cert.Attention Cert.CosAttn
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The program's result after the two host operations that follow the region: the re-layout of every head's
    attention of the three argument arrays. -/
theorem tail_eq (c : Dev nD) :
    Pipeline.afterTail₀ cfgs (dats m) 0 (V0 m) [hostOps1] c main_v2
      = relayout transposes_S8x16x1024x64_S8x1024x16x64_0_2_1_3 shapeCasts_S8x1024x16x64_S8x1024x1024
          (attn (m ((c : Thread nD τ).loc main_arg0)) (m ((c : Thread nD τ).loc main_arg1)) (m ((c : Thread nD τ).loc main_arg2))) := by
  have e : Pipeline.withArrays (cfgs 0).spec c (V0 m c) (fun w => (dats m 0 c).arrAt w (cfgs 0).N) (Proc.devRef .tc main_v0)
      = attn (m ((c : Thread nD τ).loc main_arg0)) (m ((c : Thread nD τ).loc main_arg1)) (m ((c : Thread nD τ).loc main_arg2)) :=
    (Pipeline.withArrays_arr spec0 launch0.win.arr_inj c _ _ 3).trans (heads_final m c)
  unfold Pipeline.afterTail₀
  show StableHlo.after hostOps1 _ (Proc.devRef .tc main_v2) = _
  after_results
  rw [e]
  rfl

/-- The result buffer is none of the region's arrays. -/
theorem res_rest : main_v2 ∈ Pipeline.restRefs sig (cfgs 0).spec :=
  Pipeline.mem_restRefs_of main_v2 rfl (by decide)

/-- Every weakly fair execution of the kernel program terminates with its result at the re-layout of every head's
    attention and its arguments unchanged. -/
theorem run : θ_run defs (onTc (τ := τ) (main (F := Ideal))) ⟨m, fun _ => 0, ρ⟩ fun r => ∀ c : Dev nD,
      r.2.mem ((c.tc : Thread nD τ).loc main_v2)
        = relayout transposes_S8x16x1024x64_S8x1024x16x64_0_2_1_3 shapeCasts_S8x1024x16x64_S8x1024x1024
            (attn (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v2 res_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.CosAttn.Kern

end
-- ==== Proof.lean ====
/-
  Cosine-similarity attention over 8 × 16 heads: a kernel that computes one head per grid point against a
  reference that computes all heads at once, on the extended reals.

  For each head both programs divide every row of the queries and of the keys by the larger of its Euclidean
  length and one bound, take the inner products of the normalised rows, pass each row of scores through the
  softmax (the exponential of the entry minus the row's maximum over the sum of those exponentials along the
  row) and multiply by the values; both then move the heads behind the rows and lay each row's heads end to
  end. On the extended reals a change of float format is the identity, a product into a zero accumulator and
  a general dot product are the same finite sum, a lane reduction and a host reduction over the same axis are
  the same sum or the same maximum, and the reference's extra maximum against minus infinity changes nothing:
  entry by entry the two results are one function of the three arguments, with no finiteness asked of them.
  The kernel's blocks — one head per point — tile the result array, so the array the region leaves is that
  function's value before the final re-layout, which the two programs share.
-/
import proofs.«158570_j59373627899918_1_alg».proof.Defs
import proofs.«158570_j59373627899918_1_alg».proof.Proof.Gen.Kernel
import proofs.«158570_j59373627899918_1_alg».proof.Proof.Gen.Kernel.Frame
import proofs.«158570_j59373627899918_1_alg».proof.Proof.Gen.KernelIdeal
import proofs.«158570_j59373627899918_1_alg».proof.Proof.Gen.KernelIdeal.Frame
import proofs.«158570_j59373627899918_1_alg».proof.Proof.Gen.ReferenceIdeal
import proofs.«158570_j59373627899918_1_alg».proof.Proof.Gen.ReferenceIdeal.Run
import proofs.«158570_j59373627899918_1_alg».proof.Proof.Gen.ReferenceIdeal.Read
import proofs.«158570_j59373627899918_1_alg».proof.Proof.Gen.Pre_finite_inputs
import proofs.«158570_j59373627899918_1_alg».proof.Proof.RefHeads
import proofs.«158570_j59373627899918_1_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories that agree on the arguments both programs end at the re-layout of every head's attention of
    those arguments. -/
theorem algebraic : Cert.algebraic_KernelIdeal_ReferenceIdeal := by
  intro m ρ m' ρ' _ hagree
  refine ⟨_, Cert.CosAttn.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2]
  exact Cert.CosAttn.Ref.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
